-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x1600000 : Shape := ⟨2, ![2, 1600000]⟩
abbrev S16x32 : Shape := ⟨2, ![16, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S32x2 1) : IVec S_ 1 :=
  let main_c_5 : IVec S_ 1 := constantI S_ 1 1#1
  let main_v17 : IVec S_ 1 := (fun x v => Host.reduce IntOp.andi x v reducesTo_S32x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x16 .f32) (main_arg1 : IVec S2x1600000 32) (main_arg2 : FVec F S16x32 .f32) (main_arg3 : FVec F S32 .f32) (main_arg4 : FVec F S32x2 .f32) (main_arg5 : FVec F S2 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x32 .f32 := Host.absf main_arg2
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x2 .f32 := Host.absf main_arg4
  let main_cst_4 : FVec F S_ .f32 := constant S_ .f32 0x7F800000#32
  let main_v15 : FVec F S32x2 .f32 := broadcastInDim S32x2 ![] bcast_S_S32x2 main_cst_4
  let main_v16 : IVec S32x2 1 := cmpf .olt main_v14 main_v15
  fn_part1 (F := F) main_arg5 main_v13 main_v16
-- ==== Kernel.lean ====
abbrev S100000x16 : Shape := ⟨2, ![100000, 16]⟩
abbrev S2x1600000 : Shape := ⟨2, ![2, 1600000]⟩
abbrev S16x32 : Shape := ⟨2, ![16, 32]⟩
abbrev S32 : Shape := ⟨1, ![32]⟩
abbrev S32x2 : Shape := ⟨2, ![32, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S10000x16 : Shape := ⟨2, ![10000, 16]⟩
abbrev S10000x32 : Shape := ⟨2, ![10000, 32]⟩
abbrev S1700000x32 : Shape := ⟨2, ![1700000, 32]⟩
abbrev S1x32 : Shape := ⟨2, ![1, 32]⟩
abbrev S100000x2 : Shape := ⟨2, ![100000, 2]⟩
abbrev S10000x2 : Shape := ⟨2, ![10000, 2]⟩
abbrev S1700000x2 : Shape := ⟨2, ![1700000, 2]⟩
abbrev S1x2 : Shape := ⟨2, ![1, 2]⟩

abbrev nBuf : Space → Nat
  | .hbm => 85
  | .vmem => 15
  | .smem => 0
  | _ => 0

abbrev bufTy : (tb : Table) → Fin (tcTables nBuf tb) → BufTy
  | .hbm, ⟨0, _⟩ => ⟨S100000x16, .f32⟩
  | .hbm, ⟨1, _⟩ => ⟨S2x1600000, .i32⟩
  | .hbm, ⟨2, _⟩ => ⟨S16x32, .f32⟩
  | .hbm, ⟨3, _⟩ => ⟨S32, .f32⟩
  | .hbm, ⟨4, _⟩ => ⟨S32x2, .f32⟩
  | .hbm, ⟨5, _⟩ => ⟨S2, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x32, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x32, .f32⟩
  | .hbm, ⟨56, _⟩ => ⟨S1700000x1, .f32⟩
  | .hbm, ⟨57, _⟩ => ⟨S1700000x32, .f32⟩
  | .hbm, ⟨58, _⟩ => ⟨S1700000x32, .f32⟩
  | .hbm, ⟨59, _⟩ => ⟨S_, .f32⟩
  | .hbm, ⟨60, _⟩ => ⟨S100000x32, .f32⟩
  | .hbm, ⟨61, _⟩ => ⟨S1700000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x2, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x2, .f32⟩
  | .hbm, ⟨75, _⟩ => ⟨S1700000x1, .f32⟩
  | .hbm, ⟨76, _⟩ => ⟨S1700000x2, .f32⟩
  | .hbm, ⟨77, _⟩ => ⟨S1700000x2, .f32⟩
  | .hbm, ⟨78, _⟩ => ⟨S_, .f32⟩
  | .hbm, ⟨79, _⟩ => ⟨S100000x2, .f32⟩
  | .hbm, ⟨80, _⟩ => ⟨S1700000x1, .i32⟩
  | .hbm, ⟨81, _⟩ => ⟨S100000x2, .f32⟩
  | .hbm, ⟨82, _⟩ => ⟨S1x2, .f32⟩
  | .hbm, ⟨83, _⟩ => ⟨S100000x2, .f32⟩
  | .hbm, ⟨84, _⟩ => ⟨S100000x2, .f32⟩
  | .local _ .vmem, ⟨0, _⟩ => ⟨S10000x16, .f32⟩
  | .local _ .vmem, ⟨1, _⟩ => ⟨S10000x16, .f32⟩
  | .local _ .vmem, ⟨2, _⟩ => ⟨S16x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S32x2, .f32⟩
  | .local _ .vmem, ⟨13, _⟩ => ⟨S10000x2, .f32⟩
  | .local _ .vmem, ⟨14, _⟩ => ⟨S10000x2, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x16_S10000x16_0_0 : ∀ a, (![0, 0] : Fin 2 → Nat) a + S10000x16.size a ≤ S10000x16.size a
  h_S10000x16 : 0 < S10000x16.numel
  bitsLt_bf16_f32 : FTy.bits .bf16 < FTy.bits .f32
  inb_S16x32_S16x32_0_0 : ∀ a, (![0, 0] : Fin 2 → Nat) a + S16x32.size a ≤ S16x32.size a
  h_S16x32 : 0 < S16x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x2_S32x2_0_0 : ∀ a, (![0, 0] : Fin 2 → Nat) a + S32x2.size a ≤ S32x2.size a
  h_S32x2 : 0 < S32x2.numel
  inb_S10000x2_S10000x2_0_0 : ∀ a, (![0, 0] : Fin 2 → Nat) a + S10000x2.size a ≤ S10000x2.size a
  h_S10000x2 : 0 < S10000x2.numel
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x16_S16x32_S10000x32_1_0_0_1_n_n_wf : DotDims.WF S10000x16 S16x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x2_S10000x2_1_0_0_1_n_n_wf : DotDims.WF S10000x32 S32x2 S10000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S100000x16.size a
  hwx0_0 : ∀ i : grid0.Coords, EltTy.bits .f32 = 32 ∨ (Rect.block (s := S100000x16) S10000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S16x32.size a
  hwx0_1 : ∀ i : grid0.Coords, EltTy.bits .f32 = 32 ∨ (Rect.block (s := S16x32) S16x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x2.size a ≤ S32x2.size a
  hwx2_1 : ∀ i : grid2.Coords, EltTy.bits .f32 = 32 ∨ (Rect.block (s := S32x2) S32x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x2.size a ≤ S100000x2.size a
  hwx2_2 : ∀ i : grid2.Coords, EltTy.bits .f32 = 32 ∨ (Rect.block (s := S100000x2) S10000x2.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x2_S10000x2_1_0_0_1_n_n : DotDims S10000x32 S32x2 S10000x2 where
  lhsContracting := [1]
  rhsContracting := [0]
  lhsNonContracting := [0]
  rhsNonContracting := [1]
  lhsBatch := []
  rhsBatch := []
  wf := dot_S10000x32_S32x2_S10000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

abbrev win0_0 : Pipeline.Window sig grid0 :=
  Pipeline.Window.ofSpec (Memref.whole main_arg0) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x16 : Shape := ⟨2, ![100000, 16]⟩
abbrev S2x1600000 : Shape := ⟨2, ![2, 1600000]⟩
abbrev S16x32 : Shape := ⟨2, ![16, 32]⟩
abbrev S32 : Shape := ⟨1, ![32]⟩
abbrev S32x2 : Shape := ⟨2, ![32, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S1700000x32 : Shape := ⟨2, ![1700000, 32]⟩
abbrev S1x32 : Shape := ⟨2, ![1, 32]⟩
abbrev S100000x2 : Shape := ⟨2, ![100000, 2]⟩
abbrev S1700000x2 : Shape := ⟨2, ![1700000, 2]⟩
abbrev S1x2 : Shape := ⟨2, ![1, 2]⟩

abbrev nBuf : Space → Nat
  | .hbm => 89
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x1600000, .i32⟩
  | .hbm, ⟨2, _⟩ => ⟨S16x32, .f32⟩
  | .hbm, ⟨3, _⟩ => ⟨S32, .f32⟩
  | .hbm, ⟨4, _⟩ => ⟨S32x2, .f32⟩
  | .hbm, ⟨5, _⟩ => ⟨S2, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x32, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x32, .f32⟩
  | .hbm, ⟨56, _⟩ => ⟨S1700000x1, .f32⟩
  | .hbm, ⟨57, _⟩ => ⟨S1700000x32, .f32⟩
  | .hbm, ⟨58, _⟩ => ⟨S1700000x32, .f32⟩
  | .hbm, ⟨59, _⟩ => ⟨S_, .f32⟩
  | .hbm, ⟨60, _⟩ => ⟨S100000x32, .f32⟩
  | .hbm, ⟨61, _⟩ => ⟨S1700000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x2, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x2, .f32⟩
  | .hbm, ⟨79, _⟩ => ⟨S1700000x1, .f32⟩
  | .hbm, ⟨80, _⟩ => ⟨S1700000x2, .f32⟩
  | .hbm, ⟨81, _⟩ => ⟨S1700000x2, .f32⟩
  | .hbm, ⟨82, _⟩ => ⟨S_, .f32⟩
  | .hbm, ⟨83, _⟩ => ⟨S100000x2, .f32⟩
  | .hbm, ⟨84, _⟩ => ⟨S1700000x1, .i32⟩
  | .hbm, ⟨85, _⟩ => ⟨S100000x2, .f32⟩
  | .hbm, ⟨86, _⟩ => ⟨S1x2, .f32⟩
  | .hbm, ⟨87, _⟩ => ⟨S100000x2, .f32⟩
  | .hbm, ⟨88, _⟩ => ⟨S100000x2, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x16_S16x32_S100000x32_1_0_0_1_n_n_wf : DotDims.WF S100000x16 S16x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x2_S100000x2_1_0_0_1_n_n_wf : DotDims.WF S100000x32 S32x2 S100000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

class Facts : Prop extends Facts₀ where

variable [Facts]
-- ==== Proof.KernelRun.lean ====
/-
  The idealized kernel's run, with its result kept.

  The program is three tiled regions among stretches of host operations.  Every weakly fair execution from a memory with
  zero counters ends, and at the end each buffer outside the regions' scopes holds what the fold of the program's
  segments leaves there: a host stretch acts on the buffer contents as the composition of its operations, a region
  replaces each of its output arrays by the blocks its grid points write back and leaves every other buffer alone.
  The theorem here states that reading for the result buffer beside the six argument buffers (which end as launched);
  what the fold's last contents are, as a function of the arguments, is the subject of the modules that follow.
-/
import proofs.«152245_j44478681318197_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the argument buffers end as launched. -/
theorem run_result : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.LibPlainDot.lean ====
/-
  A plain matrix product `[a, k] × [k, b] → [a, b]` read at an entry.

  The kernel's matrix unit (into the zero accumulator) and the host's `dot_general` are both, on the extended reals, the
  sum over the dimension record's contraction index of the operands' products.  When the record contracts the left
  operand's second axis with the right operand's first — stated here as four facts about the record's operand
  indices, which each use proves by evaluating its record — that sum re-indexes to `Σ j, lhs (p, j) · rhs (j, c)`.
-/
import Idealize.ShloMosaic.Lib.ValueIdx
import Idealize.ShloMosaic.PureOps.Ideal.Laws

noncomputable section

namespace Idealize.ShloMosaic.PlainDot

open Idealize.ShloMosaic Idealize.ShloMosaic.ValueIdx

variable {a k b : ℕ} {φ₁ φ₂ : FTy}

/-- The contraction sum of a plain product at entry `(p, c)`, re-indexed by the contracted coordinate. -/
theorem sum_eq (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

/-- The matrix unit into the zero accumulator, at entry `(p, c)`. -/
theorem matmul_zero_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    matmul D prec lhs rhs (constant (F := Ideal) ⟨2, ![a, b]⟩ .f32 0x00000000#32) (ix2 p c)
      = ∑ j : Fin k, lhs (ix2 p j) * rhs (ix2 j c) :=
  (Ideal.matmul_constant_zero_apply D prec lhs rhs (ix2 p c)).trans (sum_eq D hr hs hl0 hl1 hr0 hr1 lhs rhs p c)

/-- The host's `dot_general`, at entry `(p, c)`. -/
theorem dotGeneral_apply (D : DotDims ⟨2, ![a, k]⟩ ⟨2, ![k, b]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    Host.dotGeneral D prec lhs rhs (ix2 p c) = ∑ j : Fin k, lhs (ix2 p j) * rhs (ix2 j c) :=
  (Ideal.dotGeneral_apply D prec .single lhs rhs (ix2 p c)).trans (sum_eq D hr hs hl0 hl1 hr0 hr1 lhs rhs p c)

end Idealize.ShloMosaic.PlainDot

end
-- ==== Proof.Region0.lean ====
/-
  The first tiled region: the dense projection of the node features.

  The region's grid has ten points; point `t` loads rows `10000·t … 10000·t + 9999` of the feature array (all 16
  columns) and the whole 16 × 32 weight matrix, multiplies them on the matrix unit into a zero accumulator, and writes
  the 10000 × 32 product back as rows `10000·t …` of the output array.  On the extended reals a change of float format
  is the identity and the matrix unit's product at an entry is the plain sum over the contracted coordinate, so block
  `t` of the output is block `t` of the one whole-array function `rowsTimes`: entry `(r, c)` is the sum over `j` of
  `x (r, j) · w (j, c)`.  The ten blocks tile the output array (row `r` lies in block `r / 10000`), so after the region
  the array IS `rowsTimes` of the two input arrays as the region found them.
-/
import proofs.«152245_j44478681318197_1_alg».proof.Proof.Gen.KernelIdeal.Frame
import proofs.«152245_j44478681318197_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Projection1

open Idealize.ShloMosaic Idealize.ShloMosaic.TcCoe Idealize.SL.Sem Idealize.ShloMosaic.ValueIdx
open Idealize.ShloMosaic.Pipeline (Dat)
open Cert.KernelIdeal Cert.KernelIdeal.Gen

/-- Rows times weights: entry `(r, c)` is the sum over `j` of `x (r, j) · w (j, c)`. -/
def rowsTimes (x : FVec Ideal S100000x16 .f32) (w : FVec Ideal S16x32 .f32) : FVec Ideal S100000x32 .f32 :=
  fun i => ∑ j : Fin 16, x (ix2 (i 0) j) * w (ix2 j (i 1))

/-- The block product's dimension record: rows of the left operand, columns of the right, one contracted axis. -/
abbrev D : DotDims S10000x16 S16x32 S10000x32 := dot_S10000x16_S16x32_S10000x32_1_0_0_1_n_n

theorem D_lhs0 (i : S10000x32.Idx) (q : D.contr.Idx) : (D.lhsIdx i q 0).val = (i 0).val := by
  unfold DotDims.lhsIdx
  rw [dif_neg (show ¬(0 : Fin S10000x16.rank) ∈ D.lhsBatch by decide), dif_pos (show (0 : Fin S10000x16.rank) ∈ D.lhsNonContracting by decide)]
  rfl
theorem D_lhs1 (i : S10000x32.Idx) (q : D.contr.Idx) : (D.lhsIdx i q 1).val = (q ⟨0, by decide⟩).val :=
  D.lhsIdx_val_of_single rfl i q
theorem D_rhs0 (i : S10000x32.Idx) (q : D.contr.Idx) : (D.rhsIdx i q 0).val = (q ⟨0, by decide⟩).val :=
  D.rhsIdx_val_of_single rfl i q
theorem D_rhs1 (i : S10000x32.Idx) (q : D.contr.Idx) : (D.rhsIdx i q 1).val = (i 1).val := by
  unfold DotDims.rhsIdx
  rw [dif_neg (show ¬(1 : Fin S16x32.rank) ∈ D.rhsBatch by decide), dif_pos (show (1 : Fin S16x32.rank) ∈ D.rhsNonContracting by decide)]
  rfl

/-- What one grid point stores, at an entry of its block: the contraction of a row of the loaded rows with a column of
    the loaded weights (the two changes of float format are the identity on the extended reals). -/
theorem stored_apply (x0 : Vec Ideal S10000x16 .f32) (x1 : Vec Ideal S16x32 .f32) (p : Fin 10000) (q : Fin 32) :
    k0_pay1 x0 x1 (ix2 p q) = ∑ j : Fin 16, x0 (ix2 p j) * x1 (ix2 j q) := by
  unfold k0_pay1
  exact PlainDot.matmul_zero_apply D none rfl rfl D_lhs0 D_lhs1 D_rhs0 D_rhs1
    (truncf .bf16 x0 bitsLt_bf16_f32) (truncf .bf16 x1 bitsLt_bf16_f32) p q

theorem hz : (![0, 0] : Fin 2 → Nat) = fun _ => 0 := funext fun a => by fin_cases a <;> rfl

/-- The block index maps over the grid: the rows window and the output window sit at block row `t`, block column 0;
    the weights window always at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What grid point `t` writes back is block `t` of `rowsTimes` of the two input arrays as the region finds them. -/
theorem flushed_eq (c : Dev nD) (t : Fin cfg0.N) :
    (dat0 V c).flushed 2 t = ((cfg0.win 2).blk t).view.read (Elt Ideal)
      (rowsTimes (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S10000x16) hz, View.ld_unit_zero (S := S16x32) hz]
  obtain ⟨e00, e01, e10, e11, e20, e21⟩ := idx_facts t
  funext y
  obtain ⟨p, q, rfl⟩ : ∃ (p : Fin 10000) (q : Fin 32), y = ix2 p q := ⟨y 0, y 1, eq_ix2 y⟩
  show k0_pay1 (iblk0 V c 0 t) (iblk0 V c 1 t) (ix2 p q)
    = rowsTimes (V c (Pipeline.arrRef spec0 0)) (V c (Pipeline.arrRef spec0 1)) (((cfg0.win 2).blk t).view.emb (ix2 p q))
  refine (stored_apply (iblk0 V c 0 t) (iblk0 V c 1 t) p q).trans ?_
  unfold rowsTimes
  refine Finset.sum_congr rfl fun j _ => ?_
  have h0 : ((cfg0.win 0).blk t).view.emb (ix2 p j) = ix2 ((((cfg0.win 2).blk t).view.emb (ix2 p q)) 0) j := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 16 + 1 * j.val = j.val; omega
  have h1 : ((cfg0.win 1).blk t).view.emb (ix2 j q) = ix2 j ((((cfg0.win 2).blk t).view.emb (ix2 p q)) 1) := by
    funext a; apply Fin.ext
    match a with
    | ⟨0, _⟩ => show win0_1.index t (0 : Fin 2) * 16 + 1 * j.val = j.val; omega
    | ⟨1, _⟩ => show win0_1.index t (1 : Fin 2) * 32 + 1 * q.val = win0_2.index t (1 : Fin 2) * 32 + 1 * q.val; omega
  have e0 : iblk0 V c 0 t (ix2 p j) = V c (Pipeline.arrRef spec0 0) (ix2 ((((cfg0.win 2).blk t).view.emb (ix2 p q)) 0) j) :=
    congrArg (V c (Pipeline.arrRef spec0 0)) h0
  have e1 : iblk0 V c 1 t (ix2 j q) = V c (Pipeline.arrRef spec0 1) (ix2 j ((((cfg0.win 2).blk t).view.emb (ix2 p q)) 1)) :=
    congrArg (V c (Pipeline.arrRef spec0 1)) h1
  rw [e0, e1]

/-- An index of the output array is in point `t`'s block iff each coordinate is in the block's range on its axis. -/
theorem mem_blk (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v30).slice (win0_2.rect t)).set ↔ _
  rw [View.set_slice_whole, Rect.mem_set_unit]
  exact Iff.rfl

/-- The ten blocks tile the output array: row `r` lies in the block of point `r / 10000`. -/
theorem cover (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 10 := N_0
  have hlt : (i 0).val / 10000 < cfg0.N := by rw [hN]; omega
  obtain ⟨-, -, -, -, e20, e21⟩ := idx_facts ⟨(i 0).val / 10000, hlt⟩
  have e20' : win0_2.index ⟨(i 0).val / 10000, hlt⟩ (0 : Fin 2) = (i 0).val / 10000 := e20
  refine ⟨⟨(i 0).val / 10000, hlt⟩, flush0_2 _, ?_⟩
  rw [mem_blk]
  intro a
  match a with
  | ⟨0, _⟩ => show win0_2.index ⟨(i 0).val / 10000, hlt⟩ (0 : Fin 2) * 10000 ≤ (i 0).val ∧ (i 0).val < win0_2.index ⟨(i 0).val / 10000, hlt⟩ (0 : Fin 2) * 10000 + 10000; omega
  | ⟨1, _⟩ => show win0_2.index ⟨(i 0).val / 10000, hlt⟩ (1 : Fin 2) * 32 ≤ (i 1).val ∧ (i 1).val < win0_2.index ⟨(i 0).val / 10000, hlt⟩ (1 : Fin 2) * 32 + 32; omega

/-- After the region its output array is `rowsTimes` of the two input arrays as the region found them. -/
theorem value (c : Dev nD) :
    (dat0 V c).arrAt 2 cfg0.N = rowsTimes (V c (Pipeline.arrRef spec0 0)) (V c (Pipeline.arrRef spec0 1)) :=
  (dat0 V c).arrAt_eq_of_cover 2 _ (fun t _ => flushed_eq V c t) cover

end Cert.KernelIdeal.Projection1

end
-- ==== Proof.Region1.lean ====
/-
  The second tiled region: the bias and the rectifier after the first aggregation.

  The grid has ten points; point `t` loads rows `10000·t …` of the aggregated array (all 32 columns) and the 1 × 32 bias
  row, adds the bias row to every loaded row, takes the maximum with zero, and writes the block back as rows
  `10000·t …` of the output array.  Every step is pointwise (the bias row is read at the entry's column), so block `t`
  of the output is block `t` of the whole-array function `biasRelu`: entry `(r, c)` is `max (a (r, c) + b (0, c)) 0`.
  The ten blocks tile the output array, so after the region the array IS `biasRelu` of the two input arrays as the
  region found them.
-/
import proofs.«152245_j44478681318197_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.BiasRelu

open Idealize.ShloMosaic Idealize.ShloMosaic.TcCoe Idealize.SL.Sem Idealize.ShloMosaic.ValueIdx
open Idealize.ShloMosaic.Pipeline (Dat)
open Cert.KernelIdeal Cert.KernelIdeal.Gen

/-- Bias row added to every row, then the maximum with zero: entry `(r, c)` is `max (a (r, c) + b (0, c)) 0`. -/
def biasRelu (a : FVec Ideal S100000x32 .f32) (b : FVec Ideal S1x32 .f32) : FVec Ideal S100000x32 .f32 :=
  fun i => FloatOps.maximumf (FloatOps.addf (a i) (b (ix2 (0 : Fin 1) (i 1)))) (Scalar.ofBits .f32 0x00000000#32)

/-- What one grid point stores, at an entry of its block: the loaded entry plus the bias row's entry of that column,
    against zero (the two casts to the same shape are the identity; the row broadcast reads the bias at the column). -/
theorem stored_apply (x0 : Vec Ideal S10000x32 .f32) (x1 : Vec Ideal S1x32 .f32) (p : Fin 10000) (q : Fin 32) :
    k1_pay1 x0 x1 (ix2 p q)
      = FloatOps.maximumf (FloatOps.addf (x0 (ix2 p q)) (x1 (ix2 (0 : Fin 1) q))) (Scalar.ofBits .f32 0x00000000#32) := by
  show maximumf (F := Ideal) (addf (F := Ideal) (shapeCast S10000x32 x0 shapeCasts_S10000x32_S10000x32)
      (broadcastTo S10000x32 (shapeCast S1x32 x1 shapeCasts_S1x32_S1x32) broadcasts_S1x32_S10000x32))
      (broadcast S10000x32 (Scalar.ofBits (F := Ideal) .f32 0x00000000#32)) (ix2 p q) = _
  rw [shapeCast_self, shapeCast_self]
  show FloatOps.maximumf (F := Ideal) (FloatOps.addf (F := Ideal) (x0 (ix2 p q)) (broadcastTo S10000x32 x1 broadcasts_S1x32_S10000x32 (ix2 p q)))
      (Scalar.ofBits (F := Ideal) .f32 0x00000000#32) = _
  rw [broadcastTo_apply x1 broadcasts_S1x32_S10000x32 (ix2 p q) (ix2 (0 : Fin 1) q) (fun a => match a with
    | ⟨0, _⟩ => by show (0 : Nat) = if (1 : Nat) = 1 then 0 else p.val; rw [if_pos rfl]
    | ⟨1, _⟩ => by show q.val = if (32 : Nat) = 1 then 0 else q.val; rw [if_neg (by decide)])]

theorem hz : (![0, 0] : Fin 2 → Nat) = fun _ => 0 := funext fun a => by fin_cases a <;> rfl

/-- The block index maps over the grid: the rows window and the output window sit at block row `t`, block column 0;
    the bias window always at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What grid point `t` writes back is block `t` of `biasRelu` of the two input arrays as the region finds them. -/
theorem flushed_eq (c : Dev nD) (t : Fin cfg1.N) :
    (dat1 V c).flushed 2 t = ((cfg1.win 2).blk t).view.read (Elt Ideal)
      (biasRelu (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S10000x32) hz, View.ld_unit_zero (S := S1x32) hz]
  obtain ⟨e00, e01, e10, e11, e20, e21⟩ := idx_facts t
  funext y
  obtain ⟨p, q, rfl⟩ : ∃ (p : Fin 10000) (q : Fin 32), y = ix2 p q := ⟨y 0, y 1, eq_ix2 y⟩
  show k1_pay1 (iblk1 V c 0 t) (iblk1 V c 1 t) (ix2 p q)
    = biasRelu (V c (Pipeline.arrRef spec1 0)) (V c (Pipeline.arrRef spec1 1)) (((cfg1.win 2).blk t).view.emb (ix2 p q))
  refine (stored_apply (iblk1 V c 0 t) (iblk1 V c 1 t) p q).trans ?_
  unfold biasRelu
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 32 + 1 * q.val = win1_2.index t (1 : Fin 2) * 32 + 1 * q.val; omega
  have h1 : ((cfg1.win 1).blk t).view.emb (ix2 (0 : Fin 1) q) = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 32 + 1 * q.val = win1_2.index t (1 : Fin 2) * 32 + 1 * q.val; omega
  have e0 : iblk1 V c 0 t (ix2 p q) = V c (Pipeline.arrRef spec1 0) (((cfg1.win 2).blk t).view.emb (ix2 p q)) :=
    congrArg (V c (Pipeline.arrRef spec1 0)) h0
  have e1 : iblk1 V c 1 t (ix2 (0 : Fin 1) q) = V c (Pipeline.arrRef spec1 1) (ix2 (0 : Fin 1) ((((cfg1.win 2).blk t).view.emb (ix2 p q)) 1)) :=
    congrArg (V c (Pipeline.arrRef spec1 1)) h1
  rw [e0, e1]

/-- An index of the output array is in point `t`'s block iff each coordinate is in the block's range on its axis. -/
theorem mem_blk (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v45).slice (win1_2.rect t)).set ↔ _
  rw [View.set_slice_whole, Rect.mem_set_unit]
  exact Iff.rfl

/-- The ten blocks tile the output array: row `r` lies in the block of point `r / 10000`. -/
theorem cover (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 10 := N_1
  have hlt : (i 0).val / 10000 < cfg1.N := by rw [hN]; omega
  obtain ⟨-, -, -, -, e20, e21⟩ := idx_facts ⟨(i 0).val / 10000, hlt⟩
  have e20' : win1_2.index ⟨(i 0).val / 10000, hlt⟩ (0 : Fin 2) = (i 0).val / 10000 := e20
  refine ⟨⟨(i 0).val / 10000, hlt⟩, flush1_2 _, ?_⟩
  rw [mem_blk]
  intro a
  match a with
  | ⟨0, _⟩ => show win1_2.index ⟨(i 0).val / 10000, hlt⟩ (0 : Fin 2) * 10000 ≤ (i 0).val ∧ (i 0).val < win1_2.index ⟨(i 0).val / 10000, hlt⟩ (0 : Fin 2) * 10000 + 10000; omega
  | ⟨1, _⟩ => show win1_2.index ⟨(i 0).val / 10000, hlt⟩ (1 : Fin 2) * 32 ≤ (i 1).val ∧ (i 1).val < win1_2.index ⟨(i 0).val / 10000, hlt⟩ (1 : Fin 2) * 32 + 32; omega

/-- After the region its output array is `biasRelu` of the two input arrays as the region found them. -/
theorem value (c : Dev nD) :
    (dat1 V c).arrAt 2 cfg1.N = biasRelu (V c (Pipeline.arrRef spec1 0)) (V c (Pipeline.arrRef spec1 1)) :=
  (dat1 V c).arrAt_eq_of_cover 2 _ (fun t _ => flushed_eq V c t) cover

end Cert.KernelIdeal.BiasRelu

end
-- ==== Proof.Region2.lean ====
/-
  The third tiled region: the dense projection of the hidden features.

  The grid has ten points; point `t` loads rows `10000·t … 10000·t + 9999` of the hidden array (all 32 columns) and the
  whole 32 × 2 weight matrix, multiplies them on the matrix unit into a zero accumulator, and writes the 10000 × 2
  product back as rows `10000·t …` of the output array.  On the extended reals the cast to the same shape and the
  changes of float format are the identity and the matrix unit's product at an entry is the plain sum over the
  contracted coordinate, so block `t` of the output is block `t` of the whole-array function `rowsTimes`: entry
  `(r, c)` is the sum over `j` of `h (r, j) · w (j, c)`.  The ten blocks tile the output array, so after the region the
  array IS `rowsTimes` of the two input arrays as the region found them.
-/
import proofs.«152245_j44478681318197_1_alg».proof.Proof.Gen.KernelIdeal.Frame
import proofs.«152245_j44478681318197_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Projection2

open Idealize.ShloMosaic Idealize.ShloMosaic.TcCoe Idealize.SL.Sem Idealize.ShloMosaic.ValueIdx
open Idealize.ShloMosaic.Pipeline (Dat)
open Cert.KernelIdeal Cert.KernelIdeal.Gen

/-- Rows times weights: entry `(r, c)` is the sum over `j` of `x (r, j) · w (j, c)`. -/
def rowsTimes (x : FVec Ideal S100000x32 .f32) (w : FVec Ideal S32x2 .f32) : FVec Ideal S100000x2 .f32 :=
  fun i => ∑ j : Fin 32, x (ix2 (i 0) j) * w (ix2 j (i 1))

/-- The block product's dimension record: rows of the left operand, columns of the right, one contracted axis. -/
abbrev D : DotDims S10000x32 S32x2 S10000x2 := dot_S10000x32_S32x2_S10000x2_1_0_0_1_n_n

theorem D_lhs0 (i : S10000x2.Idx) (q : D.contr.Idx) : (D.lhsIdx i q 0).val = (i 0).val := by
  unfold DotDims.lhsIdx
  rw [dif_neg (show ¬(0 : Fin S10000x32.rank) ∈ D.lhsBatch by decide), dif_pos (show (0 : Fin S10000x32.rank) ∈ D.lhsNonContracting by decide)]
  rfl
theorem D_lhs1 (i : S10000x2.Idx) (q : D.contr.Idx) : (D.lhsIdx i q 1).val = (q ⟨0, by decide⟩).val :=
  D.lhsIdx_val_of_single rfl i q
theorem D_rhs0 (i : S10000x2.Idx) (q : D.contr.Idx) : (D.rhsIdx i q 0).val = (q ⟨0, by decide⟩).val :=
  D.rhsIdx_val_of_single rfl i q
theorem D_rhs1 (i : S10000x2.Idx) (q : D.contr.Idx) : (D.rhsIdx i q 1).val = (i 1).val := by
  unfold DotDims.rhsIdx
  rw [dif_neg (show ¬(1 : Fin S32x2.rank) ∈ D.rhsBatch by decide), dif_pos (show (1 : Fin S32x2.rank) ∈ D.rhsNonContracting by decide)]
  rfl

/-- What one grid point stores, at an entry of its block: the contraction of a row of the loaded rows with a column of
    the loaded weights (the cast to the same shape and the two changes of float format are the identity on the extended reals). -/
theorem stored_apply (x0 : Vec Ideal S10000x32 .f32) (x1 : Vec Ideal S32x2 .f32) (p : Fin 10000) (q : Fin 2) :
    k2_pay1 x0 x1 (ix2 p q) = ∑ j : Fin 32, x0 (ix2 p j) * x1 (ix2 j q) := by
  show matmul (F := Ideal) D none (truncf (F := Ideal) .bf16 (shapeCast S10000x32 x0 shapeCasts_S10000x32_S10000x32) bitsLt_bf16_f32)
      (truncf (F := Ideal) .bf16 x1 bitsLt_bf16_f32) (constant (F := Ideal) S10000x2 .f32 0x00000000#32) (ix2 p q) = _
  rw [shapeCast_self]
  exact PlainDot.matmul_zero_apply D none rfl rfl D_lhs0 D_lhs1 D_rhs0 D_rhs1
    (truncf .bf16 x0 bitsLt_bf16_f32) (truncf .bf16 x1 bitsLt_bf16_f32) p q

theorem hz : (![0, 0] : Fin 2 → Nat) = fun _ => 0 := funext fun a => by fin_cases a <;> rfl

/-- The block index maps over the grid: the rows window and the output window sit at block row `t`, block column 0;
    the weights window always at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What grid point `t` writes back is block `t` of `rowsTimes` of the two input arrays as the region finds them. -/
theorem flushed_eq (c : Dev nD) (t : Fin cfg2.N) :
    (dat2 V c).flushed 2 t = ((cfg2.win 2).blk t).view.read (Elt Ideal)
      (rowsTimes (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S10000x32) hz, View.ld_unit_zero (S := S32x2) hz]
  obtain ⟨e00, e01, e10, e11, e20, e21⟩ := idx_facts t
  funext y
  obtain ⟨p, q, rfl⟩ : ∃ (p : Fin 10000) (q : Fin 2), y = ix2 p q := ⟨y 0, y 1, eq_ix2 y⟩
  show k2_pay1 (iblk2 V c 0 t) (iblk2 V c 1 t) (ix2 p q)
    = rowsTimes (V c (Pipeline.arrRef spec2 0)) (V c (Pipeline.arrRef spec2 1)) (((cfg2.win 2).blk t).view.emb (ix2 p q))
  refine (stored_apply (iblk2 V c 0 t) (iblk2 V c 1 t) p q).trans ?_
  unfold rowsTimes
  refine Finset.sum_congr rfl fun j _ => ?_
  have h0 : ((cfg2.win 0).blk t).view.emb (ix2 p j) = ix2 ((((cfg2.win 2).blk t).view.emb (ix2 p q)) 0) j := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 32 + 1 * j.val = j.val; omega
  have h1 : ((cfg2.win 1).blk t).view.emb (ix2 j q) = ix2 j ((((cfg2.win 2).blk t).view.emb (ix2 p q)) 1) := by
    funext a; apply Fin.ext
    match a with
    | ⟨0, _⟩ => show win2_1.index t (0 : Fin 2) * 32 + 1 * j.val = j.val; omega
    | ⟨1, _⟩ => show win2_1.index t (1 : Fin 2) * 2 + 1 * q.val = win2_2.index t (1 : Fin 2) * 2 + 1 * q.val; omega
  have e0 : iblk2 V c 0 t (ix2 p j) = V c (Pipeline.arrRef spec2 0) (ix2 ((((cfg2.win 2).blk t).view.emb (ix2 p q)) 0) j) :=
    congrArg (V c (Pipeline.arrRef spec2 0)) h0
  have e1 : iblk2 V c 1 t (ix2 j q) = V c (Pipeline.arrRef spec2 1) (ix2 j ((((cfg2.win 2).blk t).view.emb (ix2 p q)) 1)) :=
    congrArg (V c (Pipeline.arrRef spec2 1)) h1
  rw [e0, e1]

/-- An index of the output array is in point `t`'s block iff each coordinate is in the block's range on its axis. -/
theorem mem_blk (t : Fin cfg2.N) (i : S100000x2.Idx) :
    i ∈ ((cfg2.win 2).blk t).view.set ↔ ∀ a : Fin 2, win2_2.index t a * S10000x2.size a ≤ (i a).val ∧ (i a).val < win2_2.index t a * S10000x2.size a + S10000x2.size a := by
  show i ∈ ((View.whole main_v46).slice (win2_2.rect t)).set ↔ _
  rw [View.set_slice_whole, Rect.mem_set_unit]
  exact Iff.rfl

/-- The ten blocks tile the output array: row `r` lies in the block of point `r / 10000`. -/
theorem cover (i : S100000x2.Idx) : ∃ t : Fin cfg2.N, (cfg2.win 2).flush t = true ∧ i ∈ ((cfg2.win 2).blk t).view.set := by
  have hi0 : (i 0).val < 100000 := (i 0).isLt
  have hi1 : (i 1).val < 2 := (i 1).isLt
  have hN : cfg2.N = 10 := N_2
  have hlt : (i 0).val / 10000 < cfg2.N := by rw [hN]; omega
  obtain ⟨-, -, -, -, e20, e21⟩ := idx_facts ⟨(i 0).val / 10000, hlt⟩
  have e20' : win2_2.index ⟨(i 0).val / 10000, hlt⟩ (0 : Fin 2) = (i 0).val / 10000 := e20
  refine ⟨⟨(i 0).val / 10000, hlt⟩, flush2_2 _, ?_⟩
  rw [mem_blk]
  intro a
  match a with
  | ⟨0, _⟩ => show win2_2.index ⟨(i 0).val / 10000, hlt⟩ (0 : Fin 2) * 10000 ≤ (i 0).val ∧ (i 0).val < win2_2.index ⟨(i 0).val / 10000, hlt⟩ (0 : Fin 2) * 10000 + 10000; omega
  | ⟨1, _⟩ => show win2_2.index ⟨(i 0).val / 10000, hlt⟩ (1 : Fin 2) * 2 ≤ (i 1).val ∧ (i 1).val < win2_2.index ⟨(i 0).val / 10000, hlt⟩ (1 : Fin 2) * 2 + 2; omega

/-- After the region its output array is `rowsTimes` of the two input arrays as the region found them. -/
theorem value (c : Dev nD) :
    (dat2 V c).arrAt 2 cfg2.N = rowsTimes (V c (Pipeline.arrRef spec2 0)) (V c (Pipeline.arrRef spec2 1)) :=
  (dat2 V c).arrAt_eq_of_cover 2 _ (fun t _ => flushed_eq V c t) cover

end Cert.KernelIdeal.Projection2

end
-- ==== Proof.HostStretches.lean ====
/-
  The host stretches of the idealized kernel, each as a function of the buffer contents it starts from.

  A stretch of host operations acts on the buffer contents as the composition of its operations: a buffer the stretch
  writes ends at its operation's function of the operands' contents, a buffer it does not write is left as it was.
  Read that way the kernel's stretches compute, operation for operation, the stages of the reference program:
    * the opening stretches (from the edge list alone): the source and target lists with self loops, and the edge weights
      — the product of the two end points' inverse square root degrees, zero where a degree is not positive;
    * the middle stretch: from a projected array, the lists and the weights, the aggregate (gather along the source list,
      weigh, scatter-add along the target list), and the first bias reshaped to one row;
    * the closing stretch: the same aggregation of the second projected array, plus the second bias.
  All of it holds for any float instance and any starting contents, so it is stated that way; nothing here depends on
  what the floats are.
-/
import proofs.«152245_j44478681318197_1_alg».proof.Proof.Gen.KernelIdeal.Launch
import proofs.«152245_j44478681318197_1_alg».proof.Proof.RefRead
import Idealize.ShloMosaic.Lib.StableHlo.Run

set_option maxRecDepth 16384

noncomputable section

namespace Cert.KernelIdeal.HostStretches

open Idealize.ShloMosaic Idealize.ShloMosaic.TcCoe Idealize.SL.Sem
open Cert.KernelIdeal Cert.KernelIdeal.Gen
open Cert.ReferenceIdeal.ReadP

/-- An operand that stands inside the dependent pairs of a concatenation's list is not reached by rewriting under
    congruence; there each operation's result is rewritten to its function's value, one by one. -/
macro "results_inside" : tactic =>
  `(tactic| repeat (first
      | rw [StableHlo.nullary_result] | rw [StableHlo.unary_result] | rw [StableHlo.binary_result] | rw [StableHlo.ternary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)))

variable {F : FTy → Type} [FloatOps F] (W : Valuation τ sig (Elt F))

/-! ## The opening stretches -/

/-- The contents after the three opening stretches (the edge lists; the call that guards the inverse square roots; the
    edge weights). -/
abbrev opening : Valuation τ sig (Elt F) :=
  StableHlo.after hostOps0_2 (StableHlo.after hostOps0_1 (StableHlo.after hostOps0 W))

theorem opening_arg0 : opening W (Proc.devRef .tc main_arg0) = W (Proc.devRef .tc main_arg0) := by
  dsimp only [opening, hostOps0, hostOps0_1, hostOps0_2]; after_results_simp
theorem opening_arg2 : opening W (Proc.devRef .tc main_arg2) = W (Proc.devRef .tc main_arg2) := by
  dsimp only [opening, hostOps0, hostOps0_1, hostOps0_2]; after_results_simp
theorem opening_arg3 : opening W (Proc.devRef .tc main_arg3) = W (Proc.devRef .tc main_arg3) := by
  dsimp only [opening, hostOps0, hostOps0_1, hostOps0_2]; after_results_simp
theorem opening_arg4 : opening W (Proc.devRef .tc main_arg4) = W (Proc.devRef .tc main_arg4) := by
  dsimp only [opening, hostOps0, hostOps0_1, hostOps0_2]; after_results_simp
theorem opening_arg5 : opening W (Proc.devRef .tc main_arg5) = W (Proc.devRef .tc main_arg5) := by
  dsimp only [opening, hostOps0, hostOps0_1, hostOps0_2]; after_results_simp

/-- The source list with self loops. -/
theorem opening_v3 : opening W (Proc.devRef .tc main_v3) = val_main_v3 (F := F) (W (Proc.devRef .tc main_arg1)) := by
  dsimp only [opening, hostOps0, hostOps0_1, hostOps0_2]; after_results_simp; results_inside; rfl
/-- The target list with self loops. -/
theorem opening_v6 : opening W (Proc.devRef .tc main_v6) = val_main_v6 (F := F) (W (Proc.devRef .tc main_arg1)) := by
  dsimp only [opening, hostOps0, hostOps0_1, hostOps0_2]; after_results_simp; results_inside; rfl
/-- The edge weights. -/
theorem opening_v29 : opening W (Proc.devRef .tc main_v29) = val_main_v29 (F := F) (W (Proc.devRef .tc main_arg1)) := by
  dsimp only [opening, hostOps0, hostOps0_1, hostOps0_2]; after_results_simp; results_inside; rfl

/-! ## The middle stretch -/

/-- The aggregate of a projected array: where the stretch finds the reference's projected array, lists and weights, it
    leaves the reference's aggregate. -/
theorem middle_v43 (x0 : (⟨S100000x16, .f32⟩ : BufTy).Contents (Elt F)) (x1 : (⟨S2x1600000, .i32⟩ : BufTy).Contents (Elt F)) (x2 : (⟨S16x32, .f32⟩ : BufTy).Contents (Elt F))
    (h30 : W (Proc.devRef .tc main_v30) = val_main_v30 (F := F) x0 x2)
    (h3 : W (Proc.devRef .tc main_v3) = val_main_v3 (F := F) x1)
    (h6 : W (Proc.devRef .tc main_v6) = val_main_v6 (F := F) x1)
    (h29 : W (Proc.devRef .tc main_v29) = val_main_v29 (F := F) x1) :
    StableHlo.after hostOps1 W (Proc.devRef .tc main_v43) = val_main_v43 (F := F) x0 x1 x2 := by
  dsimp only [hostOps1]; after_results_simp; results_inside
  rw [h30, h3, h6, h29]
  rfl
/-- The first bias as one row. -/
theorem middle_v44 : StableHlo.after hostOps1 W (Proc.devRef .tc main_v44)
    = shapeCast S1x32 (W (Proc.devRef .tc main_arg3)) shapeCasts_S32_S1x32 := by
  dsimp only [hostOps1]; after_results_simp; results_inside
  rfl
theorem middle_v3 : StableHlo.after hostOps1 W (Proc.devRef .tc main_v3) = W (Proc.devRef .tc main_v3) := by
  dsimp only [hostOps1]; after_results_simp
theorem middle_v6 : StableHlo.after hostOps1 W (Proc.devRef .tc main_v6) = W (Proc.devRef .tc main_v6) := by
  dsimp only [hostOps1]; after_results_simp
theorem middle_v29 : StableHlo.after hostOps1 W (Proc.devRef .tc main_v29) = W (Proc.devRef .tc main_v29) := by
  dsimp only [hostOps1]; after_results_simp
theorem middle_arg4 : StableHlo.after hostOps1 W (Proc.devRef .tc main_arg4) = W (Proc.devRef .tc main_arg4) := by
  dsimp only [hostOps1]; after_results_simp
theorem middle_arg5 : StableHlo.after hostOps1 W (Proc.devRef .tc main_arg5) = W (Proc.devRef .tc main_arg5) := by
  dsimp only [hostOps1]; after_results_simp

/-! ## The closing stretch -/

/-- Where the closing stretch finds the reference's second projected array, lists, weights and second bias, it leaves
    the reference's result. -/
theorem closing_v62 (x0 : (⟨S100000x16, .f32⟩ : BufTy).Contents (Elt F)) (x1 : (⟨S2x1600000, .i32⟩ : BufTy).Contents (Elt F)) (x2 : (⟨S16x32, .f32⟩ : BufTy).Contents (Elt F))
    (x3 : (⟨S32, .f32⟩ : BufTy).Contents (Elt F)) (x4 : (⟨S32x2, .f32⟩ : BufTy).Contents (Elt F)) (x5 : (⟨S2, .f32⟩ : BufTy).Contents (Elt F))
    (h46 : W (Proc.devRef .tc main_v46) = val_main_v48 (F := F) x0 x1 x2 x3 x4)
    (h3 : W (Proc.devRef .tc main_v3) = val_main_v3 (F := F) x1)
    (h6 : W (Proc.devRef .tc main_v6) = val_main_v6 (F := F) x1)
    (h29 : W (Proc.devRef .tc main_v29) = val_main_v29 (F := F) x1)
    (h5 : W (Proc.devRef .tc main_arg5) = x5) :
    StableHlo.after hostOps3 W (Proc.devRef .tc main_v62) = val_main_v64 (F := F) x0 x1 x2 x3 x4 x5 := by
  dsimp only [hostOps3]; after_results_simp; results_inside
  rw [h46, h3, h6, h29, h5]
  rfl

end Cert.KernelIdeal.HostStretches

end
-- ==== Proof.Fold.lean ====
/-
  The idealized kernel's last contents, read back to the arguments.

  The program's buffer contents pass through eight segments: three opening stretches of host operations (the edge lists
  with self loops, the degrees, their inverse square roots, the edge weights), the first projection region, a host stretch
  (gather the projected rows along the source list, weigh them, scatter-add them along the target list; reshape the
  first bias), the bias-and-rectifier region, the second projection region, and a closing host stretch (gather, weigh,
  scatter-add, add the second bias).  A host stretch acts as the composition of its operations; a region replaces its
  output array by one whole-array function of its two input arrays (the three region modules) and leaves every other
  buffer alone.  Walking the segments in order, each buffer that a later segment reads is identified with the
  corresponding stage of the reference program, as a function of the six arguments:
    * the source list, the target list and the edge weights are the reference's own stages (the same host operations);
    * the first projection region's output is the reference's `dot_general` of the features and the first weights
      (both are the sum over the contracted coordinate);
    * the bias-and-rectifier region's output is the reference's maximum with zero of the aggregate plus the broadcast
      bias (the kernel reads the bias through a reshape to one row, the reference through two broadcasts: the same entry);
    * the second projection region's output is the reference's second `dot_general`;
  and so the result buffer ends at the reference's result stage.
-/
import proofs.«152245_j44478681318197_1_alg».proof.Proof.Gen.KernelIdeal.Frame
import proofs.«152245_j44478681318197_1_alg».proof.Proof.Region0
import proofs.«152245_j44478681318197_1_alg».proof.Proof.Region1
import proofs.«152245_j44478681318197_1_alg».proof.Proof.Region2
import proofs.«152245_j44478681318197_1_alg».proof.Proof.RefRead
import proofs.«152245_j44478681318197_1_alg».proof.Proof.HostStretches
import Idealize.ShloMosaic.Lib.StableHlo.Run
import Idealize.ShloMosaic.Lib.Pipeline.Value
import Idealize.ShloMosaic.Lib.ValueIdx

set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen
open Cert.ReferenceIdeal.ReadP

/-! ## The three regions' functions are the reference's stages -/

/-- Rows of the features times the first weights is the reference's first `dot_general`: both are the sum over the
    contracted coordinate. -/
theorem proj1_eq (x0 : FVec Ideal S100000x16 .f32) (x2 : FVec Ideal S16x32 .f32) :
    Projection1.rowsTimes x0 x2 = val_main_v30 (F := Ideal) x0 x2 := by
  funext i
  refine Eq.trans ?_ (val_main_v30_apply x0 x2 i).symm
  unfold Projection1.rowsTimes
  refine Finset.sum_congr rfl fun k _ => ?_
  have el : (ix2 (i 0) k : S100000x16.Idx) = lidx_main_v30 i k := funext fun a => by
    match a with | ⟨0, _⟩ => rfl | ⟨1, _⟩ => rfl
  have er : (ix2 k (i 1) : S16x32.Idx) = ridx_main_v30 i k := funext fun a => by
    match a with | ⟨0, _⟩ => rfl | ⟨1, _⟩ => rfl
  rw [el, er]

/-- Rows of the hidden features times the second weights is the reference's second `dot_general`. -/
theorem proj2_eq (x0 : FVec Ideal S100000x16 .f32) (x1 : IVec S2x1600000 32) (x2 : FVec Ideal S16x32 .f32)
    (x3 : FVec Ideal S32 .f32) (x4 : FVec Ideal S32x2 .f32) :
    Projection2.rowsTimes (val_main_v47 (F := Ideal) x0 x1 x2 x3) x4 = val_main_v48 (F := Ideal) x0 x1 x2 x3 x4 := by
  funext i
  refine Eq.trans ?_ (val_main_v48_apply x0 x1 x2 x3 x4 i).symm
  unfold Projection2.rowsTimes
  refine Finset.sum_congr rfl fun k _ => ?_
  have el : (ix2 (i 0) k : S100000x32.Idx) = lidx_main_v48 i k := funext fun a => by
    match a with | ⟨0, _⟩ => rfl | ⟨1, _⟩ => rfl
  have er : (ix2 k (i 1) : S32x2.Idx) = ridx_main_v48 i k := funext fun a => by
    match a with | ⟨0, _⟩ => rfl | ⟨1, _⟩ => rfl
  rw [el, er]

/-- The bias row read through a reshape of the bias vector to one row is the reference's bias broadcast to every row;
    so `biasRelu` of an aggregate and the reshaped bias is the reference's maximum with zero of their sum. -/
theorem biasRelu_eq (a : FVec Ideal S100000x32 .f32) (x3 : FVec Ideal S32 .f32) :
    BiasRelu.biasRelu a (shapeCast S1x32 x3 shapeCasts_S32_S1x32)
      = maximumf (F := Ideal) (addf (F := Ideal) a (val_main_v45 (F := Ideal) x3)) (val_main_call1_v0 (F := Ideal)) := by
  funext i
  show FloatOps.maximumf (F := Ideal) (FloatOps.addf (F := Ideal) (a i)
        (shapeCast S1x32 x3 shapeCasts_S32_S1x32 (ix2 (0 : Fin 1) (i 1)))) (Scalar.ofBits (F := Ideal) .f32 0x00000000#32)
      = FloatOps.maximumf (F := Ideal) (FloatOps.addf (F := Ideal) (a i) (val_main_v45 (F := Ideal) x3 i))
        (val_main_call1_v0 (F := Ideal) i)
  rw [val_main_v45_apply, val_main_v44_apply, val_main_call1_v0_apply, val_main_call1_cst_apply]
  rw [shapeCast_apply x3 shapeCasts_S32_S1x32 (ix2 (0 : Fin 1) (i 1)) (idx_main_v44 (idx_main_v45 i)) (by
    rw [Shape.rowMajor_val_one, Shape.rowMajor_val_two]
    show (i 1).val = 0 * 32 + (i 1).val
    omega)]

/-! ## The walk -/

variable (m : (ℓ : Loc nD τ sig) → Buf (Elt Ideal) ℓ) (ρ : Dev nD → PrngReg) (c : Dev nD)

/-- The six arguments as launched. -/
abbrev arg0 := m ((c : Thread nD τ).loc main_arg0)
abbrev arg1 := m ((c : Thread nD τ).loc main_arg1)
abbrev arg2 := m ((c : Thread nD τ).loc main_arg2)
abbrev arg3 := m ((c : Thread nD τ).loc main_arg3)
abbrev arg4 := m ((c : Thread nD τ).loc main_arg4)
abbrev arg5 := m ((c : Thread nD τ).loc main_arg5)

/-! ### After the opening host stretches (the first projection region's entry) -/

theorem W3_arg0 : W3 m ρ c (Proc.devRef .tc main_arg0) = arg0 m c := HostStretches.opening_arg0 (W0 m ρ c)
theorem W3_arg2 : W3 m ρ c (Proc.devRef .tc main_arg2) = arg2 m c := HostStretches.opening_arg2 (W0 m ρ c)
theorem W3_arg3 : W3 m ρ c (Proc.devRef .tc main_arg3) = arg3 m c := HostStretches.opening_arg3 (W0 m ρ c)
theorem W3_arg4 : W3 m ρ c (Proc.devRef .tc main_arg4) = arg4 m c := HostStretches.opening_arg4 (W0 m ρ c)
theorem W3_arg5 : W3 m ρ c (Proc.devRef .tc main_arg5) = arg5 m c := HostStretches.opening_arg5 (W0 m ρ c)
/-- The source list with self loops. -/
theorem W3_v3 : W3 m ρ c (Proc.devRef .tc main_v3) = val_main_v3 (F := Ideal) (arg1 m c) := HostStretches.opening_v3 (W0 m ρ c)
/-- The target list with self loops. -/
theorem W3_v6 : W3 m ρ c (Proc.devRef .tc main_v6) = val_main_v6 (F := Ideal) (arg1 m c) := HostStretches.opening_v6 (W0 m ρ c)
/-- The edge weights. -/
theorem W3_v29 : W3 m ρ c (Proc.devRef .tc main_v29) = val_main_v29 (F := Ideal) (arg1 m c) := HostStretches.opening_v29 (W0 m ρ c)

/-! ### After the first projection region -/

/-- The projected features: the reference's first `dot_general`. -/
theorem W4_v30 : W4 m ρ c (Proc.devRef .tc main_v30) = val_main_v30 (F := Ideal) (arg0 m c) (arg2 m c) :=
  (W4_arr m ρ c 2).trans <| (Projection1.value (V3 m ρ) c).trans <|
    (congrArg₂ Projection1.rowsTimes (W3_arg0 m ρ c) (W3_arg2 m ρ c)).trans (proj1_eq _ _)
theorem W4_v3 : W4 m ρ c (Proc.devRef .tc main_v3) = val_main_v3 (F := Ideal) (arg1 m c) :=
  (W4_of_ne m ρ c main_v3 (by decide)).trans (W3_v3 m ρ c)
theorem W4_v6 : W4 m ρ c (Proc.devRef .tc main_v6) = val_main_v6 (F := Ideal) (arg1 m c) :=
  (W4_of_ne m ρ c main_v6 (by decide)).trans (W3_v6 m ρ c)
theorem W4_v29 : W4 m ρ c (Proc.devRef .tc main_v29) = val_main_v29 (F := Ideal) (arg1 m c) :=
  (W4_of_ne m ρ c main_v29 (by decide)).trans (W3_v29 m ρ c)
theorem W4_arg3 : W4 m ρ c (Proc.devRef .tc main_arg3) = arg3 m c :=
  (W4_of_ne m ρ c main_arg3 (by decide)).trans (W3_arg3 m ρ c)
theorem W4_arg4 : W4 m ρ c (Proc.devRef .tc main_arg4) = arg4 m c :=
  (W4_of_ne m ρ c main_arg4 (by decide)).trans (W3_arg4 m ρ c)
theorem W4_arg5 : W4 m ρ c (Proc.devRef .tc main_arg5) = arg5 m c :=
  (W4_of_ne m ρ c main_arg5 (by decide)).trans (W3_arg5 m ρ c)

/-! ### After the middle host stretch (the bias-and-rectifier region's entry) -/

/-- The first aggregate. -/
theorem W5_v43 : W5 m ρ c (Proc.devRef .tc main_v43) = val_main_v43 (F := Ideal) (arg0 m c) (arg1 m c) (arg2 m c) :=
  HostStretches.middle_v43 (W4 m ρ c) _ _ _ (W4_v30 m ρ c) (W4_v3 m ρ c) (W4_v6 m ρ c) (W4_v29 m ρ c)
/-- The first bias as one row. -/
theorem W5_v44 : W5 m ρ c (Proc.devRef .tc main_v44) = shapeCast S1x32 (arg3 m c) shapeCasts_S32_S1x32 :=
  (HostStretches.middle_v44 (W4 m ρ c)).trans
    (congrArg (fun v : FVec Ideal S32 .f32 => shapeCast S1x32 v shapeCasts_S32_S1x32) (W4_arg3 m ρ c))
theorem W5_v3 : W5 m ρ c (Proc.devRef .tc main_v3) = val_main_v3 (F := Ideal) (arg1 m c) :=
  (HostStretches.middle_v3 (W4 m ρ c)).trans (W4_v3 m ρ c)
theorem W5_v6 : W5 m ρ c (Proc.devRef .tc main_v6) = val_main_v6 (F := Ideal) (arg1 m c) :=
  (HostStretches.middle_v6 (W4 m ρ c)).trans (W4_v6 m ρ c)
theorem W5_v29 : W5 m ρ c (Proc.devRef .tc main_v29) = val_main_v29 (F := Ideal) (arg1 m c) :=
  (HostStretches.middle_v29 (W4 m ρ c)).trans (W4_v29 m ρ c)
theorem W5_arg4 : W5 m ρ c (Proc.devRef .tc main_arg4) = arg4 m c :=
  (HostStretches.middle_arg4 (W4 m ρ c)).trans (W4_arg4 m ρ c)
theorem W5_arg5 : W5 m ρ c (Proc.devRef .tc main_arg5) = arg5 m c :=
  (HostStretches.middle_arg5 (W4 m ρ c)).trans (W4_arg5 m ρ c)

/-! ### After the bias-and-rectifier region and the second projection region -/

/-- The hidden features: the reference's maximum with zero of the first aggregate plus the first bias. -/
theorem W6_v45 : W6 m ρ c (Proc.devRef .tc main_v45)
    = val_main_v47 (F := Ideal) (arg0 m c) (arg1 m c) (arg2 m c) (arg3 m c) :=
  (W6_arr m ρ c 2).trans <| (BiasRelu.value (V5 m ρ) c).trans <|
    (congrArg₂ BiasRelu.biasRelu (W5_v43 m ρ c) (W5_v44 m ρ c)).trans (biasRelu_eq _ _)
theorem W6_v3 : W6 m ρ c (Proc.devRef .tc main_v3) = val_main_v3 (F := Ideal) (arg1 m c) :=
  (W6_of_ne m ρ c main_v3 (by decide)).trans (W5_v3 m ρ c)
theorem W6_v6 : W6 m ρ c (Proc.devRef .tc main_v6) = val_main_v6 (F := Ideal) (arg1 m c) :=
  (W6_of_ne m ρ c main_v6 (by decide)).trans (W5_v6 m ρ c)
theorem W6_v29 : W6 m ρ c (Proc.devRef .tc main_v29) = val_main_v29 (F := Ideal) (arg1 m c) :=
  (W6_of_ne m ρ c main_v29 (by decide)).trans (W5_v29 m ρ c)
theorem W6_arg4 : W6 m ρ c (Proc.devRef .tc main_arg4) = arg4 m c :=
  (W6_of_ne m ρ c main_arg4 (by decide)).trans (W5_arg4 m ρ c)
theorem W6_arg5 : W6 m ρ c (Proc.devRef .tc main_arg5) = arg5 m c :=
  (W6_of_ne m ρ c main_arg5 (by decide)).trans (W5_arg5 m ρ c)

/-- The projected hidden features: the reference's second `dot_general`. -/
theorem W7_v46 : W7 m ρ c (Proc.devRef .tc main_v46)
    = val_main_v48 (F := Ideal) (arg0 m c) (arg1 m c) (arg2 m c) (arg3 m c) (arg4 m c) :=
  (W7_arr m ρ c 2).trans <| (Projection2.value (V6 m ρ) c).trans <|
    (congrArg₂ Projection2.rowsTimes (W6_v45 m ρ c) (W6_arg4 m ρ c)).trans (proj2_eq _ _ _ _ _)
theorem W7_v3 : W7 m ρ c (Proc.devRef .tc main_v3) = val_main_v3 (F := Ideal) (arg1 m c) :=
  (W7_of_ne m ρ c main_v3 (by decide)).trans (W6_v3 m ρ c)
theorem W7_v6 : W7 m ρ c (Proc.devRef .tc main_v6) = val_main_v6 (F := Ideal) (arg1 m c) :=
  (W7_of_ne m ρ c main_v6 (by decide)).trans (W6_v6 m ρ c)
theorem W7_v29 : W7 m ρ c (Proc.devRef .tc main_v29) = val_main_v29 (F := Ideal) (arg1 m c) :=
  (W7_of_ne m ρ c main_v29 (by decide)).trans (W6_v29 m ρ c)
theorem W7_arg5 : W7 m ρ c (Proc.devRef .tc main_arg5) = arg5 m c :=
  (W7_of_ne m ρ c main_arg5 (by decide)).trans (W6_arg5 m ρ c)

/-! ### After the closing host stretch -/

/-- The result buffer ends at the reference's result stage of the six arguments. -/
theorem W8_v62 : W8 m ρ c (Proc.devRef .tc main_v62)
    = val_main_v64 (F := Ideal) (arg0 m c) (arg1 m c) (arg2 m c) (arg3 m c) (arg4 m c) (arg5 m c) :=
  HostStretches.closing_v62 (W7 m ρ c) _ _ _ _ _ _ (W7_v46 m ρ c) (W7_v3 m ρ c) (W7_v6 m ρ c) (W7_v29 m ρ c) (W7_arg5 m ρ c)

end Cert.KernelIdeal.Fold

end
-- ==== Proof.lean ====
/-
  A two-layer graph convolution: the tiled kernel against its plain reference, on the extended reals.

  Both programs take node features x [100000, 16], an edge list [2, 1600000], weights W1 [16, 32], W2 [32, 2] and biases
  b1 [32], b2 [2].  Both append a self loop to every node, count each node's incoming edges, take the inverse square
  root of the counts (zero where the count is not positive), give edge (s, t) the weight dis(s) · dis(t), and apply
      h   = max (agg (x · W1) + b1, 0),        out = agg (h · W2) + b2,
  where agg gathers rows along the source list, multiplies each by its edge's weight and scatter-adds them along the
  target list.  The reference does all of it with host operations.  The kernel does the edge work with the SAME host
  operations, in the same order, and the three dense steps — x · W1, the bias and the maximum with zero, h · W2 — as
  tiled regions of ten row blocks each, the two products on the matrix unit after a change of float format.

  On the extended reals a change of float format is the identity, the matrix unit's product into a zero accumulator and
  the host's dot_general are both the sum over the contracted coordinate, and the bias read through a reshape to one
  row is the bias broadcast to every row.  So each region's output array is the reference's corresponding stage as a
  whole-array function of the region's inputs, and, the host operations around the regions being the reference's own,
  the kernel's result buffer ends at the reference's result stage of the six arguments.  No law that needs finiteness
  is used: the equality holds for all extended-real inputs, and the precondition is not opened.

  The three frames: the two kernel programs' by the generated frame proofs; the reference's is its run with the result
  dropped.  The idealization rewrote no operation, so there is nothing to preserve.
-/
import proofs.«152245_j44478681318197_1_alg».proof.Defs
import proofs.«152245_j44478681318197_1_alg».proof.Proof.Gen.Kernel
import proofs.«152245_j44478681318197_1_alg».proof.Proof.Gen.Kernel.Skeleton
import proofs.«152245_j44478681318197_1_alg».proof.Proof.Gen.Kernel.Launch
import proofs.«152245_j44478681318197_1_alg».proof.Proof.Gen.Kernel.Points
import proofs.«152245_j44478681318197_1_alg».proof.Proof.Gen.Kernel.Frame
import proofs.«152245_j44478681318197_1_alg».proof.Proof.Gen.KernelIdeal
import proofs.«152245_j44478681318197_1_alg».proof.Proof.Gen.KernelIdeal.Skeleton
import proofs.«152245_j44478681318197_1_alg».proof.Proof.Gen.KernelIdeal.Launch
import proofs.«152245_j44478681318197_1_alg».proof.Proof.Gen.KernelIdeal.Points
import proofs.«152245_j44478681318197_1_alg».proof.Proof.Gen.KernelIdeal.Frame
import proofs.«152245_j44478681318197_1_alg».proof.Proof.Gen.ReferenceIdeal
import proofs.«152245_j44478681318197_1_alg».proof.Proof.Gen.Pre_finite_inputs
import proofs.«152245_j44478681318197_1_alg».proof.Proof.RefRun
import proofs.«152245_j44478681318197_1_alg».proof.Proof.RefRead
import proofs.«152245_j44478681318197_1_alg».proof.Proof.KernelRun
import proofs.«152245_j44478681318197_1_alg».proof.Proof.Fold
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with their result at the reference's result stage of
    the kernel's six arguments: the kernel by the walk through its segments, the reference by its run. -/
theorem algebraic : Cert.algebraic_KernelIdeal_ReferenceIdeal := by
  intro m ρ m' ρ' _ hagree
  refine ⟨fun c => Cert.ReferenceIdeal.ReadP.val_main_v64 (F := Ideal)
      (Cert.KernelIdeal.Fold.arg0 m c) (Cert.KernelIdeal.Fold.arg1 m c) (Cert.KernelIdeal.Fold.arg2 m c)
      (Cert.KernelIdeal.Fold.arg3 m c) (Cert.KernelIdeal.Fold.arg4 m c) (Cert.KernelIdeal.Fold.arg5 m c), ?_, ?_⟩
  · exact (θ_run Cert.KernelIdeal.defs _ _).mono
      (fun _ h c => ⟨(h c).1.trans (Cert.KernelIdeal.Fold.W8_v62 m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v64_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
